-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : FVec F S100000x64 .f32) (main_arg2 : IVec S1600000 32) (main_arg3 : IVec S1600000 32) (main_arg4 : FVec F S1600000 .f32) (main_arg5 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 24
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S64x64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 37
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S64x64, .f32⟩
  | .hbm, ⟨6, _⟩ => ⟨S_, .f32⟩
  | .hbm, ⟨7, _⟩ => ⟨S100000x64, .f32⟩
  | .hbm, ⟨8, _⟩ => ⟨S100000x64, .f32⟩
  | .hbm, ⟨9, _⟩ => ⟨S_, .f32⟩
  | .hbm, ⟨10, _⟩ => ⟨S100000x64, .f32⟩
  | .hbm, ⟨11, _⟩ => ⟨S100000x64, .f32⟩
  | .hbm, ⟨12, _⟩ => ⟨S100000x64, .f32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  The program is two pipelined regions around one stretch of host operations.  Its buffers pass through four
  boundaries: the launch memory, region 0's exit (the blend's output array written block by block), the host
  stretch's exit (the gather, the product with the edge values, the scatter-add) and region 1's exit (the final
  output array written block by block).  The run below is the program's run over those segments, read at the
  end: the result buffer holds the last boundary's contents at that buffer, and each argument is as launched.
-/
import proofs.«117458_j72645076845142_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_named : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.KRun

end
-- ==== Proof.Spec.lean ====
/-
  The layer's result as functions of the argument arrays, index by index.

  Write `x`, `h` for the two node-feature arrays [100000, 64] and `w` for the weight [64, 64].  The layer is
    s   = 0.9·x + 0.1·h                              (the initial-residual blend, entry by entry)
    agg = the sparse product of the edge list with s  (a gather of s's rows, a product with the edge values, a
          scatter-add into the rows; kept abstract here: both programs apply the same host operations to s)
    out = 0.5·agg + 0.5·(s · w)                       (row i of s against column j of w, summed over 64 terms)
  with 0.9, 0.1 and 0.5 the values of their f32 patterns.  `support` is the first line and `output` the last,
  stated over any arrays `agg`, `s`.
-/
import Idealize.ShloMosaic.PureOps.Ideal
import Idealize.ShloMosaic.Lib.ValueIdx

noncomputable section

namespace Cert.Spec

open Idealize.ShloMosaic

/-- nodes × features -/
abbrev SN : Shape := ⟨2, ![100000, 64]⟩
/-- features × features -/
abbrev SW : Shape := ⟨2, ![64, 64]⟩

/-- The blend `0.9·x + 0.1·h`, entry by entry (at any float instance). -/
def support {F : FTy → Type} [FloatOps F] (x h : SN.Idx → F .f32) : SN.Idx → F .f32 := fun i =>
  FloatOps.addf (FloatOps.mulf (FloatOps.ofBits .f32 0x3F666666#32) (x i))
    (FloatOps.mulf (FloatOps.ofBits .f32 0x3DCCCCCD#32) (h i))

/-- Entry `k` of the row of `i`. -/
abbrev rowAt (i : SN.Idx) (k : Fin 64) : SN.Idx := fun a => match a with
  | ⟨0, _⟩ => ⟨(i 0).val, (i 0).isLt⟩
  | ⟨1, _⟩ => ⟨k.val, k.isLt⟩
/-- Entry `k` of the weight's column of `i`. -/
abbrev colAt (i : SN.Idx) (k : Fin 64) : SW.Idx := fun a => match a with
  | ⟨0, _⟩ => ⟨k.val, k.isLt⟩
  | ⟨1, _⟩ => ⟨(i 1).val, (i 1).isLt⟩

/-- `0.5·agg + 0.5·(s · w)` on the extended reals, entry by entry: the product's entry is the 64-term sum of row
    entries of `s` against column entries of `w`. -/
def output (agg s : SN.Idx → Ideal .f32) (w : SW.Idx → Ideal .f32) : SN.Idx → Ideal .f32 := fun i =>
  FloatOps.addf (F := Ideal) (FloatOps.mulf (F := Ideal) (FloatOps.ofBits (F := Ideal) .f32 0x3F000000#32) (agg i))
    (FloatOps.mulf (F := Ideal) (FloatOps.ofBits (F := Ideal) .f32 0x3F000000#32) (∑ k : Fin 64, s (rowAt i k) * w (colAt i k)))

end Cert.Spec

end
-- ==== Proof.Blend.lean ====
/-
  Region 0's output array is the blend of the two arrays the region finds.

  The first region walks 20 grid points; point `t` fetches rows [5000·t, 5000·t + 5000) of both inputs and writes
  back the same rows of the output.  The body is entry-by-entry, so what point `t` writes is block `t` of
  `Spec.support` of the two input arrays; the 20 blocks tile the 100000 rows (row `r` is in block `r / 5000`),
  so after the region the output array IS `Spec.support` of the inputs, whatever the contents `V` the region was
  entered with.
-/
import proofs.«117458_j72645076845142_1_alg».proof.Proof.Gen.KernelIdeal.Frame
import proofs.«117458_j72645076845142_1_alg».proof.Proof.Spec
import Idealize.ShloMosaic.Lib.Pipeline.Value

set_option maxRecDepth 16384

noncomputable section

namespace Cert.KernelIdeal.Blend

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's rectangles start at the origin. -/
theorem origin : (![0, 0] : Fin 2 → Nat) = fun _ => 0 := funext fun a => by fin_cases a <;> rfl

/-- At every grid point the two inputs' blocks sit where the output's block sits: block row `t`, block column 0. -/
theorem block_index : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 19 ∧ win0_2.index t (1 : Fin 2) = 0 :=
  (by decide +kernel : ∀ t : Fin grid0.N, _)

/-- Every block row is some grid point's. -/
theorem block_onto : ∀ q : Fin 20, ∃ t : Fin cfg0.N, win0_2.index t (0 : Fin 2) = q.val ∧ win0_2.index t (1 : Fin 2) = 0 :=
  (by decide +kernel : ∀ q : Fin 20, ∃ t : Fin grid0.N, win0_2.index t (0 : Fin 2) = q.val ∧ win0_2.index t (1 : Fin 2) = 0)

/-- What point `t` writes back is block `t` of the blend of the two input arrays. -/
theorem flushed_eq (c : Dev nD) (t : Fin cfg0.N) :
    (dat0 V c).flushed 2 t = ((cfg0.win 2).blk t).view.read (Elt F) (Spec.support (F := F) (V c main_arg0) (V c main_arg1)) := by
  show (cfg0.win 2).cut (grid0.coords t) ((dat0 V c).after 2 t) = _
  rw [after0_2]
  unfold out0_2
  rw [View.canon_unit_zero origin]
  simp only [View.ld_unit_zero (S := S5000x64) origin]
  obtain ⟨e0, e1, e2, e3, e4, e5⟩ := block_index t
  funext j
  show FloatOps.addf (FloatOps.mulf (FloatOps.ofBits .f32 0x3F666666#32) (V c main_arg0 (((cfg0.win 0).blk t).view.emb j)))
      (FloatOps.mulf (FloatOps.ofBits .f32 0x3DCCCCCD#32) (V c main_arg1 (((cfg0.win 1).blk t).view.emb j)))
    = FloatOps.addf (FloatOps.mulf (FloatOps.ofBits .f32 0x3F666666#32) (V c main_arg0 (((cfg0.win 2).blk t).view.emb j)))
      (FloatOps.mulf (FloatOps.ofBits .f32 0x3DCCCCCD#32) (V c main_arg1 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 64 + 1 * (j 1).val = win0_2.index t (1 : Fin 2) * 64 + 1 * (j 1).val; omega
  rw [h0, h1]

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every index of the output array is in some writing point's block: row `r` is in block `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, q0, q1⟩ := block_onto ⟨(i 0).val / 5000, by omega⟩
  have q0' : win0_2.index t (0 : Fin 2) = (i 0).val / 5000 := q0
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array is the blend of the two input arrays as the region found them. -/
theorem array_eq (c : Dev nD) :
    (dat0 V c).arrAt 2 cfg0.N = Spec.support (F := F) (V c main_arg0) (V c main_arg1) :=
  (dat0 V c).arrAt_eq_of_cover 2 (Spec.support (F := F) (V c main_arg0) (V c main_arg1)) (fun t _ => flushed_eq V c t) covered

end Cert.KernelIdeal.Blend

end
-- ==== Proof.Final.lean ====
/-
  Region 1's output array is `0.5·agg + 0.5·(s·w)` of the arrays the region finds.

  The second region walks 20 grid points; point `t` fetches rows [5000·t, 5000·t + 5000) of the aggregate `agg` and
  of the blended array `s`, the whole weight `w` (one block, at every point), and writes back the same rows of the
  output.  The body multiplies its block of `s` by `w` into a zero accumulator — at the extended reals a change of
  float format is the identity and the product's entry (p, q) is the 64-term sum of row p of the block against column q
  of `w` — and blends with its block of `agg`.  Row p of block `t` is row 5000·t + p of the array, so what point `t`
  writes is block `t` of `Spec.output agg s w`; the 20 blocks tile the rows, so the array ends as that function.
-/
import proofs.«117458_j72645076845142_1_alg».proof.Proof.Gen.KernelIdeal.Frame
import proofs.«117458_j72645076845142_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Final

open Cert.KernelIdeal Cert.KernelIdeal.Gen
open Idealize.ShloMosaic Idealize.ShloMosaic.TcCoe Idealize.SL.Sem
open Idealize.ShloMosaic.Pipeline (Dat)

/-! ## The body's value at an entry of its block -/

/-- Entry `k` of the row of `j`, inside a block of 5000 rows. -/
abbrev rowB (j : S5000x64.Idx) (k : Fin 64) : S5000x64.Idx := fun a => match a with
  | ⟨0, _⟩ => ⟨(j 0).val, (j 0).isLt⟩
  | ⟨1, _⟩ => ⟨k.val, k.isLt⟩
/-- Entry `k` of the weight's column of `j`. -/
abbrev colB (j : S5000x64.Idx) (k : Fin 64) : S64x64.Idx := fun a => match a with
  | ⟨0, _⟩ => ⟨k.val, k.isLt⟩
  | ⟨1, _⟩ => ⟨(j 1).val, (j 1).isLt⟩

theorem lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_contr (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem rhs_contr (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into a zero accumulator, at entry `j`: the 64-term sum of row entries against column entries. -/
theorem product_apply (l : FVec Ideal S5000x64 .bf16) (r : FVec Ideal S64x64 .bf16) (j : S5000x64.Idx) :
    FloatOps.matmul (F := Ideal) dot_S5000x64_S64x64_S5000x64_1_0_0_1_n_n none l r (constant (F := Ideal) S5000x64 .f32 0x00000000#32) j
      = ∑ k : Fin 64, l (rowB j k) * r (colB j k) := by
  refine (Ideal.matmul_constant_zero_apply dot_S5000x64_S64x64_S5000x64_1_0_0_1_n_n none l r j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = rowB j k := funext fun a => Fin.ext (by
    match a with
    | ⟨0, _⟩ => exact lhs_row _ _
    | ⟨1, _⟩ => exact (lhs_contr _ _).trans hk)
  have er : dot_S5000x64_S64x64_S5000x64_1_0_0_1_n_n.rhsIdx j ((ValueIdx.contrEquiv1 dot_S5000x64_S64x64_S5000x64_1_0_0_1_n_n 64 rfl rfl).symm k) = colB j k := funext fun a => Fin.ext (by
    match a with
    | ⟨0, _⟩ => exact (rhs_contr _ _).trans hk
    | ⟨1, _⟩ => exact rhs_col _ _)
  rw [el, er]

/-- The body's stored value at entry `j` of its block, from its three loaded blocks (`s`'s, the weight, `agg`'s). -/
theorem payload_apply (v0 : Vec Ideal S5000x64 .f32) (v3 : Vec Ideal S64x64 .f32) (v6 : Vec Ideal S5000x64 .f32) (j : S5000x64.Idx) :
    k1_pay1 (F := Ideal) v0 v3 v6 j
      = FloatOps.addf (F := Ideal) (FloatOps.mulf (F := Ideal) (FloatOps.ofBits (F := Ideal) .f32 0x3F000000#32) (v6 j))
          (FloatOps.mulf (F := Ideal) (FloatOps.ofBits (F := Ideal) .f32 0x3F000000#32) (∑ k : Fin 64, v0 (rowB j k) * v3 (colB j k))) := by
  unfold k1_pay1
  simp only [shapeCast_self]
  exact congrArg (fun z => FloatOps.addf (F := Ideal) (FloatOps.mulf (F := Ideal) (FloatOps.ofBits (F := Ideal) .f32 0x3F000000#32) (v6 j))
      (FloatOps.mulf (F := Ideal) (FloatOps.ofBits (F := Ideal) .f32 0x3F000000#32) z))
    (product_apply (truncf .bf16 v0 bitsLt_bf16_f32) (truncf .bf16 v3 bitsLt_bf16_f32) j)

/-- The body's stored value at entry `j` of its block is `Spec.output` at the array index `i` of that entry, once each
    loaded block is known to read its array there: the block of `agg` at `i`, the block of `s` along the row of `i`,
    the weight along the column of `i`. -/
theorem payload_at (agg s : Spec.SN.Idx → Ideal .f32) (w : Spec.SW.Idx → Ideal .f32)
    (bagg bs : Vec Ideal S5000x64 .f32) (bw : Vec Ideal S64x64 .f32) (j : S5000x64.Idx) (i : Spec.SN.Idx)
    (hagg : bagg j = agg i) (hs : ∀ k : Fin 64, bs (rowB j k) = s (Spec.rowAt i k))
    (hw : ∀ k : Fin 64, bw (colB j k) = w (Spec.colAt i k)) :
    k1_pay1 (F := Ideal) bs bw bagg j = Spec.output agg s w i := by
  refine (payload_apply bs bw bagg j).trans ?_
  unfold Spec.output
  rw [hagg]
  simp only [hs, hw]

/-! ## From blocks to the array -/

variable (V : (c : Dev nD) → (b : Ref sig .tc) → Buf (Elt Ideal) ((c : Thread nD τ).loc b))

/-- The body's rectangles start at the origin. -/
theorem origin : (![0, 0] : Fin 2 → Nat) = fun _ => 0 := funext fun a => by fin_cases a <;> rfl

/-- At every grid point the two row-blocked inputs' blocks sit where the output's block sits (block row `t`, block
    column 0), and the weight's one block is at the origin. -/
theorem block_index : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

/-- Every block row is some grid point's. -/
theorem block_onto : ∀ q : Fin 20, ∃ t : Fin cfg1.N, win1_3.index t (0 : Fin 2) = q.val ∧ win1_3.index t (1 : Fin 2) = 0 :=
  (by decide +kernel : ∀ q : Fin 20, ∃ t : Fin grid1.N, win1_3.index t (0 : Fin 2) = q.val ∧ win1_3.index t (1 : Fin 2) = 0)

/-- What point `t` writes back is block `t` of `Spec.output` of the three arrays the region finds. -/
theorem flushed_eq (c : Dev nD) (t : Fin cfg1.N) :
    (dat1 V c).flushed 3 t = ((cfg1.win 3).blk t).view.read (Elt Ideal) (Spec.output (V c main_v13) (V c main_v0) (V c main_arg5)) := by
  show (cfg1.win 3).cut (grid1.coords t) ((dat1 V c).after 3 t) = _
  rw [after1_3]
  unfold out1_3
  rw [View.canon_unit_zero origin]
  simp only [View.ld_unit_zero (S := S5000x64) origin, View.ld_unit_zero (S := S64x64) origin]
  obtain ⟨e0, e1, e2, e3, e4, e5, e6, e7⟩ := block_index t
  funext j
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ∀ k : Fin 64, ((cfg1.win 1).blk t).view.emb (rowB j k) = Spec.rowAt (((cfg1.win 3).blk t).view.emb j) k := by
    intro k; funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * k.val = k.val; omega
  have h2 : ∀ k : Fin 64, ((cfg1.win 2).blk t).view.emb (colB j k) = Spec.colAt (((cfg1.win 3).blk t).view.emb j) k := by
    intro k; funext a; apply Fin.ext
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  exact payload_at (V c main_v13) (V c main_v0) (V c main_arg5) (iblk1 V c 0 t) (iblk1 V c 1 t) (iblk1 V c 2 t) j
    (((cfg1.win 3).blk t).view.emb j) (congrArg (V c main_v13) h0) (fun k => congrArg (V c main_v0) (h1 k))
    (fun k => congrArg (V c main_arg5) (h2 k))

/-- An index of the output array is in point `t`'s block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v14).slice (win1_3.rect t)).set ↔ _
  rw [View.set_slice_whole, Rect.mem_set_unit]
  exact Iff.rfl

/-- Every index of the output array is in some writing point's block: row `r` is in block `r / 5000`. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, q0, q1⟩ := block_onto ⟨(i 0).val / 5000, by omega⟩
  have q0' : win1_3.index t (0 : Fin 2) = (i 0).val / 5000 := q0
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region the output array is `0.5·agg + 0.5·(s·w)` of the arrays the region found. -/
theorem array_eq (c : Dev nD) :
    (dat1 V c).arrAt 3 cfg1.N = Spec.output (V c main_v13) (V c main_v0) (V c main_arg5) :=
  (dat1 V c).arrAt_eq_of_cover 3 (Spec.output (V c main_v13) (V c main_v0) (V c main_arg5)) (fun t _ => flushed_eq V c t) covered

end Cert.KernelIdeal.Final

end
-- ==== Proof.Whole.lean ====
/-
  The idealized kernel's result as one function of its arguments.

  Between the two regions the program runs the sparse product on the host: it gathers rows of the first region's
  output by the edges' column indices (a negative index wrapped once by the node count), multiplies by the edge
  values, and scatter-adds into rows of zeros by the edges' row indices (`sparse`).  Reading the boundaries in order:
  region 0 leaves the blend `s = Spec.support x h`; the host stretch leaves `agg = sparse s row col val` and touches
  neither `s` nor the weight; region 1 leaves `Spec.output agg s w`.  So the result is
  `Spec.output (sparse (Spec.support x h) row col val) (Spec.support x h) w`.
-/
import proofs.«117458_j72645076845142_1_alg».proof.Proof.KernelRun
import proofs.«117458_j72645076845142_1_alg».proof.Proof.Blend
import proofs.«117458_j72645076845142_1_alg».proof.Proof.Final
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

section AnyInstance
variable {F : FTy → Type} [FloatOps F]

/-- The sparse product as the program's host operations, of any array `s` in place of the blend: row `col[e]` of `s`
    (a negative index wrapped once by the node count) times `val[e]`, added into row `row[e]` of zeros. -/
def sparse (s : (⟨S100000x64, .f32⟩ : BufTy).Contents (Elt F)) (row col : (⟨S1600000, .i32⟩ : BufTy).Contents (Elt F))
    (val : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 row)
    (mulf
      (broadcastInDim S1600000x64 ![0, 1] bcast_S1600000x1_S1600000x64_0_1
        (broadcastInDim S1600000x1 ![0] bcast_S1600000_S1600000x1_0 val))
      (Host.gather gather_S100000x64_S1600000x1_S1600000x64_1_0_n_n_0_1_164 s
        (broadcastInDim S1600000x1 ![0] bcast_S1600000_S1600000x1_0
          (select
            (cmpi CmpIPredicate.slt col (broadcastInDim S1600000 ![] bcast_S_S1600000 (constantI S_ 32 0#32)))
            (addi col (broadcastInDim S1600000 ![] bcast_S_S1600000 (constantI S_ 32 100000#32)))
            col))))

variable (m : (ℓ : Loc nD τ sig) → Buf (Elt F) ℓ) (ρ : Dev nD → PrngReg)

/-- Region 0 leaves the blend of the two feature arrays in its output array. -/
theorem blended (c : Dev nD) :
    V1 m ρ c main_v0 = Spec.support (F := F) (m ((c : Thread nD τ).loc main_arg0)) (m ((c : Thread nD τ).loc main_arg1)) :=
  (W1_arr m ρ c 2).trans (Blend.array_eq (V0 m ρ) c)

/-- The host stretch leaves the sparse product of region 0's output array with the edge list. -/
theorem aggregate (c : Dev nD) :
    V2 m ρ c main_v13 = sparse (F := F) (V1 m ρ c main_v0) (m ((c : Thread nD τ).loc main_arg2))
      (m ((c : Thread nD τ).loc main_arg3)) (m ((c : Thread nD τ).loc main_arg4)) := by
  show StableHlo.after hostOps1 (W1 m ρ c) (Proc.devRef .tc main_v13) = _
  after_results
  rw [W1_of_ne m ρ c main_arg2 (by decide), W1_of_ne m ρ c main_arg3 (by decide), W1_of_ne m ρ c main_arg4 (by decide)]
  rfl

/-- The host stretch does not write region 0's output array, -/
theorem kept_blend (c : Dev nD) : V2 m ρ c main_v0 = V1 m ρ c main_v0 := by
  show StableHlo.after hostOps1 (W1 m ρ c) (Proc.devRef .tc main_v0) = _
  after_results

/-- nor the weight, which no region before it writes either. -/
theorem kept_weight (c : Dev nD) : V2 m ρ c main_arg5 = m ((c : Thread nD τ).loc main_arg5) := by
  show StableHlo.after hostOps1 (W1 m ρ c) (Proc.devRef .tc main_arg5) = _
  after_results
  exact W1_of_ne m ρ c main_arg5 (by decide)

end AnyInstance

variable (m : (ℓ : Loc nD τ sig) → Buf (Elt Ideal) ℓ) (ρ : Dev nD → PrngReg)

/-- The layer as one function of the six arguments, on the extended reals. -/
def layer (x h : (⟨S100000x64, .f32⟩ : BufTy).Contents (Elt Ideal)) (row col : (⟨S1600000, .i32⟩ : BufTy).Contents (Elt Ideal))
    (val : (⟨S1600000, .f32⟩ : BufTy).Contents (Elt Ideal)) (w : (⟨S64x64, .f32⟩ : BufTy).Contents (Elt Ideal)) :
    (⟨S100000x64, .f32⟩ : BufTy).Contents (Elt Ideal) :=
  Spec.output (sparse (F := Ideal) (Spec.support (F := Ideal) x h) row col val) (Spec.support (F := Ideal) x h) w

/-- The last boundary's contents at the result buffer are the layer of the launch arguments. -/
theorem result_eq (c : Dev nD) :
    W3 m ρ c (Proc.devRef .tc main_v14) = layer (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (W3_arr m ρ c 3).trans ?_
  refine (Final.array_eq (V2 m ρ) c).trans ?_
  rw [aggregate, kept_blend, kept_weight, blended]
  rfl

/-- Every weakly fair execution of the idealized kernel terminates, nothing faulting, with the result buffer at the
    layer of the launch arguments and every argument as launched. -/
theorem run : θ_run defs (onTc (τ := τ) (main (F := Ideal))) ⟨m, fun _ => 0, ρ⟩ (fun r => ∀ c : Dev nD,
      r.2.mem ((c.tc : Thread nD τ).loc main_v14) = layer (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (KRun.run_named m ρ)

end Cert.KernelIdeal.Whole

end
-- ==== Proof.RefSide.lean ====
/-
  The reference's result is the specification.

  The reference computes the blend, the sparse product and the final blend as one line of host operations.  Read
  entry by entry: its blend is `Spec.support`; its dense product's entry (i, j) is the 64-term sum of row i of the
  blend against column j of the weight; its last line is `0.5·agg + 0.5·(s·w)`.  The sparse product in between
  (`sparse`) is kept as the host operations themselves, as a function of the blended array and the edge list.
-/
import proofs.«117458_j72645076845142_1_alg».proof.Proof.Gen.ReferenceIdeal.Read
import proofs.«117458_j72645076845142_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The sparse product as the reference's host operations, of any array `s` in place of the blend: row `col[e]` of
    `s` (a negative index wrapped once by the node count) times `val[e]`, added into row `row[e]` of zeros. -/
def sparse (s : (⟨S100000x64, .f32⟩ : BufTy).Contents (Elt F)) (row col : (⟨S1600000, .i32⟩ : BufTy).Contents (Elt F))
    (val : (⟨S1600000, .f32⟩ : BufTy).Contents (Elt F)) : (⟨S100000x64, .f32⟩ : BufTy).Contents (Elt F) :=
  Host.scatterAdd scatter_S100000x64_S1600000x1_S1600000x64_1_0_0_1 (val_main_v15 (F := F)) (val_main_v16 (F := F) row)
    (mulf (val_main_v13 (F := F) val)
      (Host.gather gather_S100000x64_S1600000x1_S1600000x64_1_0_n_n_0_1_164 s (val_main_v11 (F := F) col)))

/-- The reference's blend, entry by entry. -/
theorem blend_eq (x0 x1 : (⟨S100000x64, .f32⟩ : BufTy).Contents (Elt F)) :
    val_main_v4 (F := F) x0 x1 = Spec.support (F := F) x0 x1 := by
  funext i
  rw [val_main_v4_apply, val_main_v1_apply, val_main_v3_apply, val_main_v0_apply, val_main_v2_apply,
    val_main_cst_apply, val_main_cst_0_apply]
  rfl

/-- The reference's scatter-add is `sparse` of the blend. -/
theorem sparse_eq (x0 x1 : (⟨S100000x64, .f32⟩ : BufTy).Contents (Elt F)) (x2 x3 : (⟨S1600000, .i32⟩ : BufTy).Contents (Elt F))
    (x4 : (⟨S1600000, .f32⟩ : BufTy).Contents (Elt F)) :
    val_main_v17 (F := F) x0 x1 x2 x3 x4 = sparse (Spec.support (F := F) x0 x1) x2 x3 x4 := by
  unfold val_main_v17 val_main_v14 val_main_v12 sparse
  rw [blend_eq]

/-- The reference's result, at the extended reals, is `Spec.output` of the sparse product of the blend, the blend and
    the weight. -/
theorem result_eq (x0 x1 : (⟨S100000x64, .f32⟩ : BufTy).Contents (Elt Ideal)) (x2 x3 : (⟨S1600000, .i32⟩ : BufTy).Contents (Elt Ideal))
    (x4 : (⟨S1600000, .f32⟩ : BufTy).Contents (Elt Ideal)) (x5 : (⟨S64x64, .f32⟩ : BufTy).Contents (Elt Ideal)) :
    val_main_v23 (F := Ideal) x0 x1 x2 x3 x4 x5
      = Spec.output (sparse (F := Ideal) (Spec.support (F := Ideal) x0 x1) x2 x3 x4) (Spec.support (F := Ideal) x0 x1) x5 := by
  funext i
  rw [val_main_v23_apply, val_main_v19_apply, val_main_v22_apply, val_main_v18_apply, val_main_v21_apply,
    val_main_cst_3_apply, val_main_cst_4_apply, val_main_v20_apply, sparse_eq, blend_eq]
  rfl

end Cert.ReferenceIdeal.RefValue

end
-- ==== Proof.lean ====
/-
  A graph-convolution layer with an initial residual: kernel against reference, on the extended reals.

  Both programs compute, from node features `x`, `h` : [100000, 64], an edge list (`row`, `col`, `val`) of
  1600000 edges and a weight `w` : [64, 64],
      s   = 0.9·x + 0.1·h
      agg = the sparse product: row col[e] of s times val[e], summed into row row[e]
      out = 0.5·agg + 0.5·(s·w).
  The kernel computes `s` in one pipelined region over 20 blocks of 5000 rows, runs the sparse product as host
  operations, and computes `out` in a second region over the same 20 row blocks, each multiplying its block of `s` by the
  whole of `w`; the reference is one line of host operations with one whole product.  On the extended reals a change of
  float format is the identity, a product into a zero accumulator is the plain 64-term sum, and row p of block t is row
  5000·t + p of the array, so block by block the kernel writes exactly the entries the reference's formula gives; the
  two sparse products are the same host operations applied to the same array.  No entry's value is rearranged — the
  sums have the same terms in the same order — so the precondition is not used.

  The modules: `Spec` (the blend and the final formula, entry by entry), `Blend` and `Final` (each region's output
  array as that function of what the region finds), `KernelRun` and `Whole` (the program's run read boundary by
  boundary), `RefSide` (the reference's term as the same formula).  The idealization rewrote nothing, so the
  `preserves` conjunct is `True`.
-/
import proofs.«117458_j72645076845142_1_alg».proof.Defs
import proofs.«117458_j72645076845142_1_alg».proof.Proof.Gen.Kernel
import proofs.«117458_j72645076845142_1_alg».proof.Proof.Gen.Kernel.Skeleton
import proofs.«117458_j72645076845142_1_alg».proof.Proof.Gen.Kernel.Launch
import proofs.«117458_j72645076845142_1_alg».proof.Proof.Gen.Kernel.Points
import proofs.«117458_j72645076845142_1_alg».proof.Proof.Gen.Kernel.Frame
import proofs.«117458_j72645076845142_1_alg».proof.Proof.Gen.KernelIdeal
import proofs.«117458_j72645076845142_1_alg».proof.Proof.Gen.KernelIdeal.Skeleton
import proofs.«117458_j72645076845142_1_alg».proof.Proof.Gen.KernelIdeal.Launch
import proofs.«117458_j72645076845142_1_alg».proof.Proof.Gen.KernelIdeal.Points
import proofs.«117458_j72645076845142_1_alg».proof.Proof.Gen.KernelIdeal.Frame
import proofs.«117458_j72645076845142_1_alg».proof.Proof.Gen.ReferenceIdeal
import proofs.«117458_j72645076845142_1_alg».proof.Proof.Gen.Pre_finite_inputs
import proofs.«117458_j72645076845142_1_alg».proof.Proof.Gen.ReferenceIdeal.Run
import proofs.«117458_j72645076845142_1_alg».proof.Proof.Gen.ReferenceIdeal.Read
import proofs.«117458_j72645076845142_1_alg».proof.Proof.Whole
import proofs.«117458_j72645076845142_1_alg».proof.Proof.RefSide
import Idealize.ShloMosaic.Adequacy
import Idealize.ShloMosaic.Init

noncomputable section

namespace Cert.Proof

open Idealize.ShloMosaic Idealize.ShloMosaic.TcCoe Idealize.SL.Sem

/-- The two programs' sparse products are the same host operations with the same dimension numbers. -/
theorem sparse_same (s : (⟨Cert.KernelIdeal.S100000x64, .f32⟩ : BufTy).Contents (Elt Ideal))
    (row col : (⟨Cert.KernelIdeal.S1600000, .i32⟩ : BufTy).Contents (Elt Ideal))
    (val : (⟨Cert.KernelIdeal.S1600000, .f32⟩ : BufTy).Contents (Elt Ideal)) :
    Cert.ReferenceIdeal.RefValue.sparse (F := Ideal) s row col val = Cert.KernelIdeal.Whole.sparse (F := Ideal) s row col val := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer of those arguments in their result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, sparse_same,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
